-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x8192x5 : Shape := ⟨3, ![256, 8192, 5]⟩
abbrev S_ : Shape := ⟨0, ![]⟩

class Facts : Prop where
  bcast_S_S256x8192x5 : S_.BroadcastsInDim S256x8192x5 (![] : Fin 0 → Fin S256x8192x5.rank)
  reducesTo_S256x8192x5_S_d0_1_2 : S256x8192x5.ReducesTo [0, 1, 2] S_
  h_S_ : 0 < S_.numel

variable [Facts]

def fn {F : FTy → Type} [FloatOps F] (main_arg0 : FVec F S256x8192x5 .f32) (main_arg1 : FVec F S256x8192x5 .f32) : IVec S_ 1 :=
  let main_v0 : FVec F S256x8192x5 .f32 := Host.absf main_arg0
  let main_cst : FVec F S_ .f32 := constant S_ .f32 0x7F800000#32
  let main_v1 : FVec F S256x8192x5 .f32 := broadcastInDim S256x8192x5 ![] bcast_S_S256x8192x5 main_cst
  let main_v2 : IVec S256x8192x5 1 := cmpf .olt main_v0 main_v1
  let main_c : IVec S_ 1 := constantI S_ 1 1#1
  let main_v3 : IVec S_ 1 := (fun x v => Host.reduce IntOp.andi x v reducesTo_S256x8192x5_S_d0_1_2 h_S_) main_v2 main_c
  let main_v4 : FVec F S256x8192x5 .f32 := Host.absf main_arg1
  let main_cst_0 : FVec F S_ .f32 := constant S_ .f32 0x7F800000#32
  let main_v5 : FVec F S256x8192x5 .f32 := broadcastInDim S256x8192x5 ![] bcast_S_S256x8192x5 main_cst_0
  let main_v6 : IVec S256x8192x5 1 := cmpf .olt main_v4 main_v5
  let main_c_1 : IVec S_ 1 := constantI S_ 1 1#1
  let main_v7 : IVec S_ 1 := (fun x v => Host.reduce IntOp.andi x v reducesTo_S256x8192x5_S_d0_1_2 h_S_) main_v6 main_c_1
  let main_v8 : IVec S_ 1 := andi main_v3 main_v7
  main_v8
-- ==== Kernel.lean ====
abbrev S256x8192x5 : Shape := ⟨3, ![256, 8192, 5]⟩
abbrev S256x5 : Shape := ⟨2, ![256, 5]⟩
abbrev S128x64x5 : Shape := ⟨3, ![128, 64, 5]⟩
abbrev S128x5 : Shape := ⟨2, ![128, 5]⟩
abbrev S128x64x1 : Shape := ⟨3, ![128, 64, 1]⟩
abbrev S_ : Shape := ⟨0, ![]⟩

abbrev nBuf : Space → Nat
  | .hbm => 7
  | .vmem => 7
  | .smem => 0
  | _ => 0

abbrev bufTy : (tb : Table) → Fin (tcTables nBuf tb) → BufTy
  | .hbm, ⟨0, _⟩ => ⟨S256x8192x5, .f32⟩
  | .hbm, ⟨1, _⟩ => ⟨S256x8192x5, .f32⟩
  | .hbm, ⟨2, _⟩ => ⟨S256x5, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .local _ .vmem, ⟨0, _⟩ => ⟨S128x64x5, .f32⟩
  | .local _ .vmem, ⟨1, _⟩ => ⟨S128x64x5, .f32⟩
  | .local _ .vmem, ⟨2, _⟩ => ⟨S128x64x5, .f32⟩
  | .local _ .vmem, ⟨3, _⟩ => ⟨S128x64x5, .f32⟩
  | .local _ .vmem, ⟨4, _⟩ => ⟨S128x5, .f32⟩
  | .local _ .vmem, ⟨5, _⟩ => ⟨S128x5, .f32⟩
  | .local _ .vmem, ⟨6, _⟩ => ⟨S128x5, .f32⟩
  | _, _ => ⟨S256x8192x5, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 128], ![false, false]⟩

def k0_cond2 (i : grid0.Coords) : BitVec 1 :=
  let arg1 : BitVec 32 := BitVec.ofNat 32 (i 1).val
  let c127_i32 : BitVec 32 := 127#32
  let v33 : BitVec 1 := Scalar.cmpi .eq arg1 c127_i32
  let v34 : BitVec 32 := Scalar.extui v33
  let c0_i32_14 : BitVec 32 := 0#32
  let v35 : BitVec 1 := Scalar.cmpi .ne v34 c0_i32_14
  v35

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S128x64x5 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x64x5 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x5 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S128x5_S128x5_0_0 : ∀ a, (![0, 0] : Fin 2 → Nat) a + S128x5.size a ≤ S128x5.size a
  h_S128x5 : 0 < S128x5.numel
  shapeCasts_S128x5_S128x5 : S128x5.ShapeCasts S128x5
  inb_S128x64x5_S128x64x5_0_0_0 : ∀ a, (![0, 0, 0] : Fin 3 → Nat) a + S128x64x5.size a ≤ S128x64x5.size a
  h_S128x64x5 : 0 < S128x64x5.numel
  iota_S128x64x5_d2_w32 : S128x64x5.Iotas .tc 32 [2]
  slices_S128x64x5_o0_0_4_S128x64x1 : S128x64x5.Slices ![0, 0, 4] S128x64x1
  broadcasts_S128x64x1_S128x64x5 : S128x64x1.Broadcasts S128x64x5
  reduces_S128x64x5_S128x5 : S128x64x5.Reduces [1] S128x5
  reducesTo_S256x5_S_d0_1 : S256x5.ReducesTo [0, 1] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x64x5.size a ≤ S256x8192x5.size a
  hwx0_0 : ∀ i : grid0.Coords, EltTy.bits .f32 = 32 ∨ (Rect.block (s := S256x8192x5) S128x64x5.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x64x5.size a ≤ S256x8192x5.size a
  hwx0_1 : ∀ i : grid0.Coords, EltTy.bits .f32 = 32 ∨ (Rect.block (s := S256x8192x5) S128x64x5.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x5.size a ≤ S256x5.size a
  hwx0_2 : ∀ i : grid0.Coords, EltTy.bits .f32 = 32 ∨ (Rect.block (s := S256x5) S128x5.size (cc0_transform_2 i) (hinb0_2 i)).WholeWords (EltTy.packing .f32)

variable [Facts₀]

abbrev win0_0 : Pipeline.Window sig grid0 :=
  Pipeline.Window.ofSpec (Memref.whole main_arg0) S128x64x5.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x64x5.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S128x5.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S256x8192x5 : Shape := ⟨3, ![256, 8192, 5]⟩
abbrev S256x8192x1 : Shape := ⟨3, ![256, 8192, 1]⟩
abbrev S256x8192 : Shape := ⟨2, ![256, 8192]⟩
abbrev S_ : Shape := ⟨0, ![]⟩
abbrev S256x5 : Shape := ⟨2, ![256, 5]⟩

abbrev nBuf : Space → Nat
  | .hbm => 64
  | .vmem => 0
  | .smem => 0
  | _ => 0

abbrev bufTy : (tb : Table) → Fin (tcTables nBuf tb) → BufTy
  | .hbm, ⟨0, _⟩ => ⟨S256x8192x5, .f32⟩
  | .hbm, ⟨1, _⟩ => ⟨S256x8192x5, .f32⟩
  | .hbm, ⟨2, _⟩ => ⟨S256x8192x1, .f32⟩
  | .hbm, ⟨3, _⟩ => ⟨S256x8192, .f32⟩
  | .hbm, ⟨4, _⟩ => ⟨S256x8192, .f32⟩
  | .hbm, ⟨5, _⟩ => ⟨S256x8192, .f32⟩
  | .hbm, ⟨6, _⟩ => ⟨S_, .f32⟩
  | .hbm, ⟨7, _⟩ => ⟨S256x8192, .f32⟩
  | .hbm, ⟨8, _⟩ => ⟨S256x8192, .f32⟩
  | .hbm, ⟨9, _⟩ => ⟨S_, .f32⟩
  | .hbm, ⟨10, _⟩ => ⟨S256x8192, .f32⟩
  | .hbm, ⟨11, _⟩ => ⟨S256x8192, .f32⟩
  | .hbm, ⟨12, _⟩ => ⟨S256x8192x1, .f32⟩
  | .hbm, ⟨13, _⟩ => ⟨S256x8192, .f32⟩
  | .hbm, ⟨14, _⟩ => ⟨S256x8192, .f32⟩
  | .hbm, ⟨15, _⟩ => ⟨S256x8192, .f32⟩
  | .hbm, ⟨16, _⟩ => ⟨S_, .f32⟩
  | .hbm, ⟨17, _⟩ => ⟨S256x8192, .f32⟩
  | .hbm, ⟨18, _⟩ => ⟨S256x8192, .f32⟩
  | .hbm, ⟨19, _⟩ => ⟨S_, .f32⟩
  | .hbm, ⟨20, _⟩ => ⟨S256x8192, .f32⟩
  | .hbm, ⟨21, _⟩ => ⟨S256x8192, .f32⟩
  | .hbm, ⟨22, _⟩ => ⟨S256x8192x1, .f32⟩
  | .hbm, ⟨23, _⟩ => ⟨S256x8192, .f32⟩
  | .hbm, ⟨24, _⟩ => ⟨S256x8192, .f32⟩
  | .hbm, ⟨25, _⟩ => ⟨S256x8192x1, .f32⟩
  | .hbm, ⟨26, _⟩ => ⟨S256x8192, .f32⟩
  | .hbm, ⟨27, _⟩ => ⟨S256x8192, .f32⟩
  | .hbm, ⟨28, _⟩ => ⟨S256x8192x1, .f32⟩
  | .hbm, ⟨29, _⟩ => ⟨S256x8192, .f32⟩
  | .hbm, ⟨30, _⟩ => ⟨S256x8192, .f32⟩
  | .hbm, ⟨31, _⟩ => ⟨S256x8192, .f32⟩
  | .hbm, ⟨32, _⟩ => ⟨S_, .f32⟩
  | .hbm, ⟨33, _⟩ => ⟨S256x8192, .f32⟩
  | .hbm, ⟨34, _⟩ => ⟨S256x8192, .f32⟩
  | .hbm, ⟨35, _⟩ => ⟨S_, .f32⟩
  | .hbm, ⟨36, _⟩ => ⟨S256x8192, .f32⟩
  | .hbm, ⟨37, _⟩ => ⟨S256x8192, .f32⟩
  | .hbm, ⟨38, _⟩ => ⟨S256x8192x1, .f32⟩
  | .hbm, ⟨39, _⟩ => ⟨S256x8192x1, .f32⟩
  | .hbm, ⟨40, _⟩ => ⟨S256x8192x1, .f32⟩
  | .hbm, ⟨41, _⟩ => ⟨S256x8192x1, .f32⟩
  | .hbm, ⟨42, _⟩ => ⟨S256x8192x1, .f32⟩
  | .hbm, ⟨43, _⟩ => ⟨S256x8192x5, .f32⟩
  | .hbm, ⟨44, _⟩ => ⟨S256x8192x1, .f32⟩
  | .hbm, ⟨45, _⟩ => ⟨S_, .f32⟩
  | .hbm, ⟨46, _⟩ => ⟨S256x8192x1, .f32⟩
  | .hbm, ⟨47, _⟩ => ⟨S256x8192x1, .i1⟩
  | .hbm, ⟨48, _⟩ => ⟨S_, .f32⟩
  | .hbm, ⟨49, _⟩ => ⟨S_, .f32⟩
  | .hbm, ⟨50, _⟩ => ⟨S256x8192x1, .f32⟩
  | .hbm, ⟨51, _⟩ => ⟨S256x8192x1, .f32⟩
  | .hbm, ⟨52, _⟩ => ⟨S256x8192x1, .f32⟩
  | .hbm, ⟨53, _⟩ => ⟨S256x8192x5, .f32⟩
  | .hbm, ⟨54, _⟩ => ⟨S256x8192x5, .f32⟩
  | .hbm, ⟨55, _⟩ => ⟨S256x8192x1, .f32⟩
  | .hbm, ⟨56, _⟩ => ⟨S256x8192x5, .f32⟩
  | .hbm, ⟨57, _⟩ => ⟨S256x8192x5, .f32⟩
  | .hbm, ⟨58, _⟩ => ⟨S_, .f32⟩
  | .hbm, ⟨59, _⟩ => ⟨S256x5, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | _, _ => ⟨S256x8192x5, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_cst_3 : Ref sig .tc := ⟨.hbm, 32, rfl⟩
abbrev main_v26 : Ref sig .tc := ⟨.hbm, 33, rfl⟩
abbrev main_v27 : Ref sig .tc := ⟨.hbm, 34, rfl⟩
abbrev main_cst_4 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_cst_5 : Ref sig .tc := ⟨.hbm, 45, rfl⟩
abbrev main_v37 : Ref sig .tc := ⟨.hbm, 46, rfl⟩
abbrev main_v38 : Ref sig .tc := ⟨.hbm, 47, rfl⟩
abbrev main_cst_6 : Ref sig .tc := ⟨.hbm, 48, rfl⟩
abbrev main_cst_7 : Ref sig .tc := ⟨.hbm, 49, rfl⟩
abbrev main_call0_v0 : Ref sig .tc := ⟨.hbm, 50, rfl⟩
abbrev main_call0_v1 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_cst_8 : Ref sig .tc := ⟨.hbm, 58, rfl⟩
abbrev main_v45 : Ref sig .tc := ⟨.hbm, 59, rfl⟩
abbrev main_cst_9 : Ref sig .tc := ⟨.hbm, 60, rfl⟩
abbrev main_v46 : Ref sig .tc := ⟨.hbm, 61, rfl⟩
abbrev main_cst_10 : Ref sig .tc := ⟨.hbm, 62, rfl⟩
abbrev main_v47 : Ref sig .tc := ⟨.hbm, 63, rfl⟩

abbrev nD : Nat := 1
abbrev τ : Topo := Topo.v7x

variable {F : FTy → Type} [FloatOps F]

class Facts₀ : Prop where
  slices_S256x8192x5_S256x8192x1_0_0_0 : S256x8192x5.Slices ![0, 0, 0] S256x8192x1
  shapeCasts_S256x8192x1_S256x8192 : S256x8192x1.ShapeCasts S256x8192
  bcast_S_S256x8192 : S_.BroadcastsInDim S256x8192 (![] : Fin 0 → Fin S256x8192.rank)
  slices_S256x8192x5_S256x8192x1_0_0_1 : S256x8192x5.Slices ![0, 0, 1] S256x8192x1
  slices_S256x8192x5_S256x8192x1_0_0_2 : S256x8192x5.Slices ![0, 0, 2] S256x8192x1
  slices_S256x8192x5_S256x8192x1_0_0_3 : S256x8192x5.Slices ![0, 0, 3] S256x8192x1
  slices_S256x8192x5_S256x8192x1_0_0_4 : S256x8192x5.Slices ![0, 0, 4] S256x8192x1
  bcast_S256x8192_S256x8192x1_0_1 : S256x8192.BroadcastsInDim S256x8192x1 (![0, 1] : Fin 2 → Fin S256x8192x1.rank)
  concatenates_S256x8192x1_S256x8192x1_S256x8192x1_S256x8192x1_S256x8192x1_S256x8192x5_d2 : Shape.Concatenates [S256x8192x1, S256x8192x1, S256x8192x1, S256x8192x1, S256x8192x1] S256x8192x5 2
  bcast_S_S256x8192x1 : S_.BroadcastsInDim S256x8192x1 (![] : Fin 0 → Fin S256x8192x1.rank)
  bcast_S256x8192x1_S256x8192x5_0_1_2 : S256x8192x1.BroadcastsInDim S256x8192x5 (![0, 1, 2] : Fin 3 → Fin S256x8192x5.rank)
  reducesTo_S256x8192x5_S256x5_d1 : S256x8192x5.ReducesTo [1] S256x5
  h_S_ : 0 < S_.numel
  reducesTo_S256x5_S_d0_1 : S256x5.ReducesTo [0, 1] S_

variable [Facts₀]

class Facts : Prop extends Facts₀ where

variable [Facts]
-- ==== Proof.Pieces.lean ====
/-
  What one grid step leaves behind, as values, for any float instance.

  The kernel keeps a running block (128 samples by 5 channels) in a scratch buffer between steps.  Every step stores
  into it one new block: the step's payload, a function of the two input tiles and of the running block it loaded.
  At the first step of a block of samples the running block is first overwritten by the zero block, and the load that
  follows reads that zero block back, so the payload is taken at the zero block.  At the last step of a block of
  samples the step also loads the scratch again, after its store, and stores what it read into the output's buffer: the
  output receives exactly the new running block.  Each statement below reads the stores a case's run found back as
  that value; all loads and stores are through the whole buffers, so a store leaves its payload and a load after it
  reads it.
-/
import proofs.«157780_j67499706024292_2_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.SL.Sem
open Idealize.ShloMosaic.Tactic

variable {F : FTy → Type} [FloatOps F]

/-- The zero offsets of a rank-2 and of a rank-3 whole-buffer rectangle. -/
theorem hz2 : (![0, 0] : Fin 2 → Nat) = fun _ => 0 := funext fun a => by fin_cases a <;> rfl
theorem hz3 : (![0, 0, 0] : Fin 3 → Nat) = fun _ => 0 := funext fun a => by fin_cases a <;> rfl

/-- A middle step (neither first nor last of its block of samples) leaves in the scratch the payload at the running
    block `xs` it found there. -/
theorem scratch_B (c : Dev nD) (i : grid0.Coords) (a2 : Memref sig .tc .vmem S128x64x5 .f32) (h2 : a2.IsWhole)
    (a3 : Memref sig .tc .vmem S128x64x5 .f32) (h3 : a3.IsWhole) (a4 : Memref sig .tc .vmem S128x5 .f32) (h4 : a4.IsWhole)
    (a5 : Memref sig .tc .vmem S128x5 .f32) (h5 : a5.IsWhole) (hc0 : ¬cond0_0 i) (hc1 : ¬cond0_1 i)
    (x0 x1 : Vec F S128x64x5 .f32) (xs : Vec F S128x5 .f32) :
    sout0_B_0 c i a2 h2 a3 h3 a4 h4 a5 h5 hc0 hc1 x0 x1 xs = k0_pay2 x0 x1 xs := by
  unfold sout0_B_0
  rw [View.read_writes_eq_canon _ _ _ (scover0_B_0 c i a2 h2 a3 h3 a4 h4 a5 h5 hc0 hc1 x0 x1 xs)]
  unfold kernelRun0_B
  dsimp only
  rw [View.canon_unit_zero hz2]
  simp only [View.readAt_eq_ld, h2.read_unread, h3.read_unread, h5.read_unread, View.ld_unit_zero (S := S128x64x5) hz3,
    View.ld_unit_zero (S := S128x5) hz2]

/-- The last step of a block of samples leaves the same in the scratch, -/
theorem scratch_C (c : Dev nD) (i : grid0.Coords) (a2 : Memref sig .tc .vmem S128x64x5 .f32) (h2 : a2.IsWhole)
    (a3 : Memref sig .tc .vmem S128x64x5 .f32) (h3 : a3.IsWhole) (a4 : Memref sig .tc .vmem S128x5 .f32) (h4 : a4.IsWhole)
    (a5 : Memref sig .tc .vmem S128x5 .f32) (h5 : a5.IsWhole) (hc0 : ¬cond0_0 i) (hc1 : cond0_1 i)
    (x0 x1 : Vec F S128x64x5 .f32) (xs : Vec F S128x5 .f32) :
    sout0_C_0 c i a2 h2 a3 h3 a4 h4 a5 h5 hc0 hc1 x0 x1 xs = k0_pay2 x0 x1 xs := by
  unfold sout0_C_0
  rw [View.read_writes_eq_canon _ _ _ (scover0_C_0 c i a2 h2 a3 h3 a4 h4 a5 h5 hc0 hc1 x0 x1 xs)]
  unfold kernelRun0_C
  dsimp only
  sl_unfold_words
  rw [View.canon_unit_zero hz2]
  simp only [View.readAt_eq_ld, h2.read_unread, h3.read_unread, h5.read_unread, View.ld_unit_zero (S := S128x64x5) hz3,
    View.ld_unit_zero (S := S128x5) hz2]

/-- and the same in the output's buffer: the load after the store reads the stored payload. -/
theorem out_C (c : Dev nD) (i : grid0.Coords) (a2 : Memref sig .tc .vmem S128x64x5 .f32) (h2 : a2.IsWhole)
    (a3 : Memref sig .tc .vmem S128x64x5 .f32) (h3 : a3.IsWhole) (a4 : Memref sig .tc .vmem S128x5 .f32) (h4 : a4.IsWhole)
    (a5 : Memref sig .tc .vmem S128x5 .f32) (h5 : a5.IsWhole) (hc0 : ¬cond0_0 i) (hc1 : cond0_1 i)
    (x0 x1 : Vec F S128x64x5 .f32) (xs : Vec F S128x5 .f32) :
    out0_C_2 c i a2 h2 a3 h3 a4 h4 a5 h5 hc0 hc1 x0 x1 xs = k0_pay2 x0 x1 xs := by
  unfold out0_C_2
  rw [View.read_writes_eq_canon _ _ _ (cover0_C_2 c i a2 h2 a3 h3 a4 h4 a5 h5 hc0 hc1 x0 x1 xs)]
  unfold kernelRun0_C
  dsimp only
  sl_unfold_words
  rw [View.canon_unit_zero hz2, View.readCov_unit_zero (S := S128x5) _ hz2]
  simp only [View.readAt_eq_ld, h2.read_unread, h3.read_unread, h5.read_unread, View.ld_unit_zero (S := S128x64x5) hz3,
    View.ld_unit_zero (S := S128x5) hz2]

/-- The first step of a block of samples leaves in the scratch the payload at the zero block: the zero block is
    stored first, and the load of the running block reads it back. -/
theorem scratch_A (c : Dev nD) (i : grid0.Coords) (a2 : Memref sig .tc .vmem S128x64x5 .f32) (h2 : a2.IsWhole)
    (a3 : Memref sig .tc .vmem S128x64x5 .f32) (h3 : a3.IsWhole) (a4 : Memref sig .tc .vmem S128x5 .f32) (h4 : a4.IsWhole)
    (a5 : Memref sig .tc .vmem S128x5 .f32) (h5 : a5.IsWhole) (hc0 : cond0_0 i) (hc1 : ¬cond0_1 i)
    (x0 x1 : Vec F S128x64x5 .f32) :
    sout0_A_0 c i a2 h2 a3 h3 a4 h4 a5 h5 hc0 hc1 x0 x1 = k0_pay2 x0 x1 (k0_pay1 (F := F)) := by
  unfold sout0_A_0
  rw [View.read_writes_eq_canon _ _ _ (scover0_A_0 c i a2 h2 a3 h3 a4 h4 a5 h5 hc0 hc1 x0 x1)]
  unfold kernelRun0_A
  dsimp only
  sl_unfold_words
  rw [View.canon_cons_unit_zero (S := S128x5) hz2, View.readCov_unit_zero (S := S128x5) _ hz2]
  simp only [View.readAt_eq_ld, h2.read_unread, h3.read_unread, View.ld_unit_zero (S := S128x64x5) hz3]

end Cert.KernelIdeal.Pieces

end
-- ==== Proof.Spec.lean ====
/-
  The quantity both programs compute, on the extended reals.

  The inputs are two arrays x, y of shape [256, 8192, 5]: for each of 256 samples, 8192 cells of 5 channels.
  A prediction x is first transformed channel by channel: channels 0, 1 and 4 by the logistic function, channels
  2 and 3 by the exponential.  A cell's weight is decided by its label's channel 4: 0.1 (the float word of that
  decimal) when it exceeds 1/2, and 1 otherwise.  A cell's term on channel ch is its weight times the square of the
  difference between the label and the transformed prediction.  The loss array, of shape [256, 5], holds at
  (sample, channel) the sum of the terms of all 8192 cells.  The programs' final scalar is the mean of that array;
  the mean is the same operations on both sides, kept here as one definition that is never opened.

  For the running sum over tiles of cells the term is also given over natural-number coordinates, zero outside the
  array, so that partial sums are sums over an initial segment of the naturals.
-/
import Idealize.ShloMosaic.PureOps.Ideal
import Idealize.ShloMosaic.Lib.ValueIdx

noncomputable section

open scoped BigOperators

namespace Cert.WeightedLoss

open Idealize.ShloMosaic Idealize.ShloMosaic.ValueIdx

/-- The transform of a prediction on channel `ch`: the exponential on channels 2 and 3, the logistic function on the
    others. -/
def act (ch : Nat) (v : EReal) : EReal :=
  if ch = 2 ∨ ch = 3 then Ideal.exp v else Ideal.logistic v

/-- A cell's weight from its label's last channel: the word of 0.1 above one half, one otherwise.  (The comparison
    is the floats' ordered greater-than read on the extended reals; both programs spell it the same way.) -/
def weight (v : EReal) : EReal :=
  Scalar.select (FloatOps.cmpf (F := Ideal) (φ := .f32) .ogt v (Ideal.ofBits .f32 0x3F000000#32))
    (Ideal.ofBits .f32 0x3DCCCCCD#32) (Ideal.ofBits .f32 0x3F800000#32)

/-- The weighted squared error of one entry: `w · ((l − a) · (l − a))` for the weight's source `l4`, the label `l`
    and the transformed prediction `a`. -/
def sqErr (l4 l a : EReal) : EReal := weight l4 * ((l - a) * (l - a))

variable {B C : Nat}

/-- The term of cell `k` of sample `b` on channel `ch`, for arrays of any extents with five channels. -/
def term (x y : (⟨3, ![B, C, 5]⟩ : Shape).Idx → EReal) (b : Fin B) (k : Fin C) (ch : Fin 5) : EReal :=
  sqErr (y (ix3 b k (4 : Fin 5))) (y (ix3 b k ch)) (act ch.val (x (ix3 b k ch)))

/-- The same over natural-number coordinates: zero outside the array. -/
def termN (x y : (⟨3, ![B, C, 5]⟩ : Shape).Idx → EReal) (b k : Nat) (ch : Fin 5) : EReal :=
  if h : b < B ∧ k < C then term x y ⟨b, h.1⟩ ⟨k, h.2⟩ ch else 0

theorem termN_of_lt (x y : (⟨3, ![B, C, 5]⟩ : Shape).Idx → EReal) (b : Fin B) (k : Fin C) (ch : Fin 5) :
    termN x y b.val k.val ch = term x y b k ch := by
  unfold termN; rw [dif_pos ⟨b.isLt, k.isLt⟩]

/-- The loss array: at (sample, channel) the sum of the terms of all the cells. -/
def loss (x y : (⟨3, ![B, C, 5]⟩ : Shape).Idx → EReal) : (⟨2, ![B, 5]⟩ : Shape).Idx → EReal :=
  fun i => ∑ k : Fin C, term x y (i 0) k (i 1)

/-- The sum over all cells as a sum over an initial segment of the naturals. -/
theorem loss_eq_range (x y : (⟨3, ![B, C, 5]⟩ : Shape).Idx → EReal) (b : Fin B) (ch : Fin 5) :
    loss x y (ix2 b ch) = ∑ k ∈ Finset.range C, termN x y b.val k ch := by
  unfold loss
  rw [← Fin.sum_univ_eq_sum_range (fun k => termN x y b.val k ch) C]
  exact Finset.sum_congr rfl fun k _ => (termN_of_lt x y b k ch).symm

/-- The mean of the loss array as both programs take it: the 1280 entries summed from the zero word, the total
    divided by the word of 1280.  The two shape facts are the programs' own side conditions, passed in so that both
    programs' last operations are this one term. -/
def mean (L : (⟨2, ![256, 5]⟩ : Shape).Idx → EReal)
    (h : (⟨2, ![256, 5]⟩ : Shape).ReducesTo [(0 : Fin 2), (1 : Fin 2)] (⟨0, ![]⟩ : Shape))
    (hu : 0 < (⟨0, ![]⟩ : Shape).numel) : (⟨0, ![]⟩ : Shape).Idx → EReal :=
  Host.divf (F := Ideal) (φ := .f32)
    (Host.reduceAdd (F := Ideal) (φ := .f32) L (constant (F := Ideal) ⟨0, ![]⟩ .f32 0x00000000#32) h hu)
    (constant (F := Ideal) ⟨0, ![]⟩ .f32 0x44A00000#32)

end Cert.WeightedLoss

end
-- ==== Proof.TileTerm.lean ====
/-
  One grid step of the kernel, read at an entry, on the extended reals.

  A step sees one tile of the inputs: 128 samples by 64 cells by 5 channels of predictions x and of labels y, and the
  accumulator, 128 samples by 5 channels.  It adds to the accumulator, at (sample r, channel ch), the sum over the
  tile's 64 cells of the weighted squared error of that entry.  Three facts make this the specification's term:
  the weight, computed on a [128, 64, 1] column taken from the labels' channel 4 and broadcast along the channels,
  reads at (r, l, ch) the weight of the label at (r, l, 4); the transform, chosen by comparing the channel's number
  with 0, 1 and 4, is the logistic function on those channels and the exponential on 2 and 3; and the lane sum over the
  middle axis started from the zero word is the plain sum over the 64 cells.
-/
import proofs.«157780_j67499706024292_2_alg».proof.Proof.Gen.KernelIdeal.Skeleton
import proofs.«157780_j67499706024292_2_alg».proof.Proof.Spec
import Idealize.ShloMosaic.Lib.Pipeline.Value
import Idealize.ShloMosaic.PureOps.Ideal.Laws

noncomputable section

open scoped BigOperators

namespace Cert.KernelIdeal.TileValue

open Cert.KernelIdeal Cert.KernelIdeal.Gen Idealize.ShloMosaic Idealize.ShloMosaic.ValueIdx Cert.WeightedLoss

/-- The weight column broadcast along the channels, at (r, l, ch): the weight of the label at (r, l, 4).  The slice
    at offset 4 of the last axis reads channel 4, and a broadcast along a unit axis reads that axis at 0. -/
theorem weight_at (x1 : FVec Ideal S128x64x5 .f32) (hs : S128x64x5.Slices ![0, 0, 4] S128x64x1)
    (hb : S128x64x1.Broadcasts S128x64x5) (r : Fin 128) (l : Fin 64) (ch : Fin 5) :
    broadcastTo S128x64x5
      (select (cmpf .ogt (extractStridedSlice S128x64x1 ![0, 0, 4] x1 hs)
          (broadcast S128x64x1 (Scalar.ofBits (F := Ideal) .f32 0x3F000000#32)))
        (broadcast S128x64x1 (Scalar.ofBits (F := Ideal) .f32 0x3DCCCCCD#32))
        (broadcast S128x64x1 (Scalar.ofBits (F := Ideal) .f32 0x3F800000#32))) hb (ix3 r l ch)
      = weight (x1 (ix3 r l (4 : Fin 5))) := by
  refine (broadcastTo_apply _ hb (ix3 r l ch) (ix3 r l (0 : Fin 1)) (fun a => ?_)).trans ?_
  · match a with
    | ⟨0, _⟩ => rfl
    | ⟨1, _⟩ => rfl
    | ⟨2, _⟩ => rfl
  · show Scalar.select (FloatOps.cmpf .ogt (extractStridedSlice S128x64x1 ![0, 0, 4] x1 hs (ix3 r l (0 : Fin 1))) _) _ _ = _
    rw [extractStridedSlice_apply ![0, 0, 4] x1 hs (ix3 r l (0 : Fin 1)) (ix3 r l (4 : Fin 5)) (fun a => by
      match a with
      | ⟨0, _⟩ => show r.val = 0 + r.val; omega
      | ⟨1, _⟩ => show l.val = 0 + l.val; omega
      | ⟨2, _⟩ => rfl)]
    rfl

/-- Choosing by "the channel's number is 0, or 1, or 4" picks the first value on every channel of 0..4 except 2
    and 3. -/
theorem chan_select (n : Nat) (hn : n < 5) (a b : EReal) :
    Scalar.select (IntOp.ori (IntOp.ori (IntOp.cmpi .eq (BitVec.ofNat 32 n) 0#32) (IntOp.cmpi .eq (BitVec.ofNat 32 n) 1#32))
      (IntOp.cmpi .eq (BitVec.ofNat 32 n) 4#32)) a b = if n = 2 ∨ n = 3 then b else a := by
  interval_cases n <;> rfl

/-- The transformed prediction at (r, l, ch): the counter along the last axis reads the channel's number, so the
    selection between the logistic function and the exponential is the specification's. -/
theorem act_at (x0 : FVec Ideal S128x64x5 .f32) (hi : S128x64x5.Iotas .tc 32 [2]) (r : Fin 128) (l : Fin 64) (ch : Fin 5) :
    select (ori (ori (cmpi .eq (iota .tc S128x64x5 32 [2] hi) (broadcast S128x64x5 0#32))
          (cmpi .eq (iota .tc S128x64x5 32 [2] hi) (broadcast S128x64x5 1#32)))
        (cmpi .eq (iota .tc S128x64x5 32 [2] hi) (broadcast S128x64x5 4#32)))
      (logistic x0) (exp x0) (ix3 r l ch) = act ch.val (x0 (ix3 r l ch)) := by
  show Scalar.select (IntOp.ori (IntOp.ori (IntOp.cmpi .eq (iota .tc S128x64x5 32 [2] hi (ix3 r l ch)) 0#32)
      (IntOp.cmpi .eq (iota .tc S128x64x5 32 [2] hi (ix3 r l ch)) 1#32))
      (IntOp.cmpi .eq (iota .tc S128x64x5 32 [2] hi (ix3 r l ch)) 4#32)) (Ideal.logistic (x0 (ix3 r l ch))) (Ideal.exp (x0 (ix3 r l ch))) = _
  rw [iota_single_apply .tc S128x64x5 32 2 hi (ix3 r l ch)]
  show Scalar.select (IntOp.ori (IntOp.ori (IntOp.cmpi .eq (BitVec.ofNat 32 ch.val) 0#32)
      (IntOp.cmpi .eq (BitVec.ofNat 32 ch.val) 1#32))
      (IntOp.cmpi .eq (BitVec.ofNat 32 ch.val) 4#32)) _ _ = _
  unfold act
  exact chan_select ch.val ch.isLt _ _

/-- The accumulator's new contents at (r, ch): its old contents plus the tile's 64 terms on that sample and channel. -/
theorem pay2_at (x0 x1 : Vec Ideal S128x64x5 .f32) (xs : Vec Ideal S128x5 .f32) (r : Fin 128) (ch : Fin 5) :
    k0_pay2 (F := Ideal) x0 x1 xs (ix2 r ch)
      = xs (ix2 r ch) + ∑ l : Fin 64, term (B := 128) (C := 64) x0 x1 r l ch := by
  unfold k0_pay2
  refine (congrFun (shapeCast_self _ shapeCasts_S128x5_S128x5) (ix2 r ch)).trans ?_
  refine congrArg (xs (ix2 r ch) + ·) ?_
  refine (Ideal.multiReduction_add_single _ 0x00000000#32 reduces_S128x64x5_S128x5 (.inl rfl) rfl (ix2 r ch)).trans ?_
  refine Finset.sum_congr rfl fun l _ => ?_
  have e : reduces_S128x64x5_S128x5.lift (ix2 r ch) l = ix3 r l ch :=
    funext fun a => Fin.ext (by match a with | ⟨0, _⟩ => rfl | ⟨1, _⟩ => rfl | ⟨2, _⟩ => rfl)
  refine (congrArg _ e).trans ?_
  exact congrArg₂ (fun w a => w * ((x1 (ix3 r l ch) - a) * (x1 (ix3 r l ch) - a)))
    (weight_at x1 slices_S128x64x5_o0_0_4_S128x64x1 broadcasts_S128x64x1_S128x64x5 r l ch)
    (act_at x0 iota_S128x64x5_d2_w32 r l ch)

/-- The block stored at the first step of a block of samples is zero everywhere. -/
theorem pay1_at (r : Fin 128) (ch : Fin 5) : k0_pay1 (F := Ideal) (ix2 r ch) = 0 := by
  unfold k0_pay1
  refine (congrFun (shapeCast_self _ shapeCasts_S128x5_S128x5) (ix2 r ch)).trans ?_
  exact Ideal.ofBits_zero_f32

end Cert.KernelIdeal.TileValue

end
-- ==== Proof.Running.lean ====
/-
  The running block, step by step, on the extended reals.

  The grid has 256 steps: step n works on the block of samples number n / 128 (128 samples each) and on the tile of
  cells number n mod 128 (64 cells each), in that order.  The tile a step reads is the array at samples
  128·(n / 128) + r and cells 64·(n mod 128) + l.  The running block starts from zero at the first tile of a block of
  samples and every step adds its tile's 64 terms; so after step n it holds, at (r, ch), the sum of the terms of the
  cells 0 … 64·(n mod 128 + 1) − 1 of sample 128·(n / 128) + r on channel ch: an initial segment of that sample's
  cells, longer by one tile at every step.  After the last tile of a block of samples it is the sum over all 8192
  cells, the loss array's entry, and that step's output block is this running block.
-/
import proofs.«157780_j67499706024292_2_alg».proof.Proof.Pieces
import proofs.«157780_j67499706024292_2_alg».proof.Proof.TileTerm

noncomputable section

open scoped BigOperators

namespace Cert.KernelIdeal.Running

open Cert.KernelIdeal Cert.KernelIdeal.Gen Idealize.ShloMosaic Idealize.ShloMosaic.TcCoe Idealize.SL.Sem
open Idealize.ShloMosaic.ValueIdx Cert.WeightedLoss

variable (m : (ℓ : Loc nD τ sig) → Buf (Elt Ideal) ℓ)

/-- The two argument arrays on core `c`, as functions of an index. -/
abbrev X (c : Dev nD) : (⟨3, ![256, 8192, 5]⟩ : Shape).Idx → EReal := m ((c : Thread nD τ).loc main_arg0)
abbrev Y (c : Dev nD) : (⟨3, ![256, 8192, 5]⟩ : Shape).Idx → EReal := m ((c : Thread nD τ).loc main_arg1)

/-- Where the input tiles sit, decided once over the grid: step `t` reads block of samples `t / 128`, tile of cells
    `t mod 128`, all channels. -/
theorem tile_of_step : ∀ t : Fin cfg0.N,
    win0_0.index t (0 : Fin 3) = t.val / 128 ∧ win0_0.index t (1 : Fin 3) = t.val % 128 ∧ win0_0.index t (2 : Fin 3) = 0
    ∧ win0_1.index t (0 : Fin 3) = t.val / 128 ∧ win0_1.index t (1 : Fin 3) = t.val % 128 ∧ win0_1.index t (2 : Fin 3) = 0 :=
  (by decide +kernel : ∀ t : Fin grid0.N, _)

theorem sample_lt (t : Fin cfg0.N) (r : Fin 128) : 128 * (t.val / 128) + r.val < 256 := by
  have h := t.isLt; have hN : cfg0.N = 256 := N_0; have := r.isLt; omega

theorem cell_lt (t : Fin cfg0.N) (l : Fin 64) : 64 * (t.val % 128) + l.val < 8192 := by
  have := l.isLt; omega

/-- The predictions' tile at step `t`, at (r, l, ch): the array at sample 128·(t / 128) + r, cell 64·(t mod 128) + l. -/
theorem tile0_at (c : Dev nD) (t : Fin cfg0.N) (r : Fin 128) (l : Fin 64) (ch : Fin 5) :
    (iblk m c 0 t : Vec Ideal S128x64x5 .f32) (ix3 r l ch)
      = X m c (ix3 ⟨128 * (t.val / 128) + r.val, sample_lt t r⟩ ⟨64 * (t.val % 128) + l.val, cell_lt t l⟩ ch) := by
  obtain ⟨e0, e1, e2, -, -, -⟩ := tile_of_step t
  unfold iblk
  rw [View.read_apply]
  show V m c main_arg0 _ = m (c.tc.loc main_arg0) _
  unfold V
  congr 1
  funext a
  apply Fin.ext
  match a with
  | ⟨0, _⟩ => show win0_0.index t (0 : Fin 3) * 128 + 1 * r.val = 128 * (t.val / 128) + r.val; rw [e0]; omega
  | ⟨1, _⟩ => show win0_0.index t (1 : Fin 3) * 64 + 1 * l.val = 64 * (t.val % 128) + l.val; rw [e1]; omega
  | ⟨2, _⟩ => show win0_0.index t (2 : Fin 3) * 5 + 1 * ch.val = ch.val; rw [e2]; omega

/-- The labels' tile, the same way. -/
theorem tile1_at (c : Dev nD) (t : Fin cfg0.N) (r : Fin 128) (l : Fin 64) (ch : Fin 5) :
    (iblk m c 1 t : Vec Ideal S128x64x5 .f32) (ix3 r l ch)
      = Y m c (ix3 ⟨128 * (t.val / 128) + r.val, sample_lt t r⟩ ⟨64 * (t.val % 128) + l.val, cell_lt t l⟩ ch) := by
  obtain ⟨-, -, -, e0, e1, e2⟩ := tile_of_step t
  unfold iblk
  rw [View.read_apply]
  show V m c main_arg1 _ = m (c.tc.loc main_arg1) _
  unfold V
  congr 1
  funext a
  apply Fin.ext
  match a with
  | ⟨0, _⟩ => show win0_1.index t (0 : Fin 3) * 128 + 1 * r.val = 128 * (t.val / 128) + r.val; rw [e0]; omega
  | ⟨1, _⟩ => show win0_1.index t (1 : Fin 3) * 64 + 1 * l.val = 64 * (t.val % 128) + l.val; rw [e1]; omega
  | ⟨2, _⟩ => show win0_1.index t (2 : Fin 3) * 5 + 1 * ch.val = ch.val; rw [e2]; omega

/-- A tile's term is the array's term at the tile's place. -/
theorem tile_term (c : Dev nD) (t : Fin cfg0.N) (r : Fin 128) (l : Fin 64) (ch : Fin 5) :
    term (B := 128) (C := 64) (iblk m c 0 t) (iblk m c 1 t) r l ch
      = termN (X m c) (Y m c) (128 * (t.val / 128) + r.val) (64 * (t.val % 128) + l.val) ch := by
  refine Eq.trans ?_ (termN_of_lt (X m c) (Y m c) ⟨_, sample_lt t r⟩ ⟨_, cell_lt t l⟩ ch).symm
  unfold term
  rw [tile0_at m c t r l ch, tile1_at m c t r l ch, tile1_at m c t r l (4 : Fin 5)]

/-- The 64 terms a step adds, as the terms of the next 64 cells of the array. -/
theorem tile_sum (c : Dev nD) (t : Fin cfg0.N) (r : Fin 128) (ch : Fin 5) :
    ∑ l : Fin 64, term (B := 128) (C := 64) (iblk m c 0 t) (iblk m c 1 t) r l ch
      = ∑ l ∈ Finset.range 64, termN (X m c) (Y m c) (128 * (t.val / 128) + r.val) (64 * (t.val % 128) + l) ch := by
  rw [← Fin.sum_univ_eq_sum_range (fun l => termN (X m c) (Y m c) (128 * (t.val / 128) + r.val) (64 * (t.val % 128) + l) ch) 64]
  exact Finset.sum_congr rfl fun l _ => tile_term m c t r l ch

/-- The sum of the terms of the first `64·(n mod 128 + 1)` cells of sample `128·(n / 128) + r` on channel `ch`. -/
def partialSum (c : Dev nD) (n : Nat) (r : Fin 128) (ch : Fin 5) : EReal :=
  ∑ k ∈ Finset.range (64 * (n % 128 + 1)), termN (X m c) (Y m c) (128 * (n / 128) + r.val) k ch

/-! ### What each kind of step leaves in the scratch, as the payload of the step's tiles -/

theorem scratch_first (c : Dev nD) (t : Fin cfg0.N) (h0 : t.val % 128 = 0) (h1 : ¬t.val % 128 = 127) :
    (outsAt0 m c t.val t.isLt).2 = k0_pay2 (iblk m c 0 t) (iblk m c 1 t) (k0_pay1 (F := Ideal)) := by
  rw [outsAt0_A m c t h0 h1]
  exact Pieces.scratch_A (F := Ideal) c (grid0.coords t) (ms0_0 t) (hs0_0 t) (ms0_1 t) (hs0_1 t) (ms0_2 t) (hs0_2 t) scM0_0
    (Memref.isWhole_whole _) ((hcond0_0 t).mpr h0) (fun h => h1 ((hcond0_1 t).mp h)) (iblk m c 0 t) (iblk m c 1 t)

theorem scratch_middle (c : Dev nD) (t : Fin cfg0.N) (h0 : ¬t.val % 128 = 0) (h1 : ¬t.val % 128 = 127) :
    (outsAt0 m c t.val t.isLt).2 = k0_pay2 (iblk m c 0 t) (iblk m c 1 t)
      (outsAt0 m c (t.val - 1) (Nat.lt_of_le_of_lt (Nat.sub_le _ _) t.isLt)).2 := by
  rw [outsAt0_B m c t h0 h1]
  exact Pieces.scratch_B (F := Ideal) c (grid0.coords t) (ms0_0 t) (hs0_0 t) (ms0_1 t) (hs0_1 t) (ms0_2 t) (hs0_2 t) scM0_0
    (Memref.isWhole_whole _) (fun h => h0 ((hcond0_0 t).mp h)) (fun h => h1 ((hcond0_1 t).mp h)) (iblk m c 0 t) (iblk m c 1 t)
    (outsAt0 m c (t.val - 1) (Nat.lt_of_le_of_lt (Nat.sub_le _ _) t.isLt)).2

theorem scratch_last (c : Dev nD) (t : Fin cfg0.N) (h0 : ¬t.val % 128 = 0) (h1 : t.val % 128 = 127) :
    (outsAt0 m c t.val t.isLt).2 = k0_pay2 (iblk m c 0 t) (iblk m c 1 t)
      (outsAt0 m c (t.val - 1) (Nat.lt_of_le_of_lt (Nat.sub_le _ _) t.isLt)).2 := by
  rw [outsAt0_C m c t h0 h1]
  exact Pieces.scratch_C (F := Ideal) c (grid0.coords t) (ms0_0 t) (hs0_0 t) (ms0_1 t) (hs0_1 t) (ms0_2 t) (hs0_2 t) scM0_0
    (Memref.isWhole_whole _) (fun h => h0 ((hcond0_0 t).mp h)) ((hcond0_1 t).mpr h1) (iblk m c 0 t) (iblk m c 1 t)
    (outsAt0 m c (t.val - 1) (Nat.lt_of_le_of_lt (Nat.sub_le _ _) t.isLt)).2

/-- At the last step of a block of samples the output's buffer receives what the scratch receives. -/
theorem out_last (c : Dev nD) (t : Fin cfg0.N) (h0 : ¬t.val % 128 = 0) (h1 : t.val % 128 = 127) :
    (outsAt0 m c t.val t.isLt).1 = (outsAt0 m c t.val t.isLt).2 := by
  rw [scratch_last m c t h0 h1, outsAt0_C m c t h0 h1]
  exact Pieces.out_C (F := Ideal) c (grid0.coords t) (ms0_0 t) (hs0_0 t) (ms0_1 t) (hs0_1 t) (ms0_2 t) (hs0_2 t) scM0_0
    (Memref.isWhole_whole _) (fun h => h0 ((hcond0_0 t).mp h)) ((hcond0_1 t).mpr h1) (iblk m c 0 t) (iblk m c 1 t)
    (outsAt0 m c (t.val - 1) (Nat.lt_of_le_of_lt (Nat.sub_le _ _) t.isLt)).2

/-- THE RUNNING SUM: after step `n` the scratch holds, at (r, ch), the terms of the cells seen so far of its sample. -/
theorem scratch_eq (c : Dev nD) : ∀ (n : Nat) (h : n < cfg0.N) (r : Fin 128) (ch : Fin 5),
    (outsAt0 m c n h).2 (ix2 r ch) = partialSum m c n r ch := by
  intro n
  induction n with
  | zero =>
    intro h r ch
    have e := scratch_first m c ⟨0, h⟩ (Nat.zero_mod _) (show ¬(0 : Nat) % 128 = 127 by decide)
    rw [show (outsAt0 m c 0 h).2 = _ from e, TileValue.pay2_at, TileValue.pay1_at, zero_add, tile_sum]
    unfold partialSum
    simp
  | succ n ih =>
    intro h r ch
    have hN : cfg0.N = 256 := N_0
    by_cases h0 : (n + 1) % 128 = 0
    · have h1 : ¬(n + 1) % 128 = 127 := by omega
      have e := scratch_first m c ⟨n + 1, h⟩ h0 h1
      rw [show (outsAt0 m c (n + 1) h).2 = _ from e, TileValue.pay2_at, TileValue.pay1_at, zero_add, tile_sum]
      unfold partialSum
      show ∑ l ∈ Finset.range 64, termN (X m c) (Y m c) (128 * ((n + 1) / 128) + r.val) (64 * ((n + 1) % 128) + l) ch = _
      rw [h0]
      simp
    · have hprev := ih (Nat.lt_of_succ_lt h) r ch
      have e : (outsAt0 m c (n + 1) h).2 = k0_pay2 (iblk m c 0 ⟨n + 1, h⟩) (iblk m c 1 ⟨n + 1, h⟩)
          (outsAt0 m c n (Nat.lt_of_succ_lt h)).2 := by
        by_cases h1 : (n + 1) % 128 = 127
        · exact scratch_last m c ⟨n + 1, h⟩ h0 h1
        · exact scratch_middle m c ⟨n + 1, h⟩ h0 h1
      rw [e, TileValue.pay2_at, hprev, tile_sum]
      unfold partialSum
      show _ + ∑ l ∈ Finset.range 64, termN (X m c) (Y m c) (128 * ((n + 1) / 128) + r.val) (64 * ((n + 1) % 128) + l) ch = _
      have d : (n + 1) / 128 = n / 128 := by omega
      have q : (n + 1) % 128 = n % 128 + 1 := by omega
      rw [d, q, show 64 * (n % 128 + 1 + 1) = 64 * (n % 128 + 1) + 64 by ring, Finset.sum_range_add]

/-- After the last tile of a block of samples the output's block holds the loss array's entries of its samples. -/
theorem out_eq (c : Dev nD) (t : Fin cfg0.N) (h1 : t.val % 128 = 127) (r : Fin 128) (ch : Fin 5) :
    (outsAt0 m c t.val t.isLt).1 (ix2 r ch)
      = loss (X m c) (Y m c) (ix2 ⟨128 * (t.val / 128) + r.val, sample_lt t r⟩ ch) := by
  have h0 : ¬t.val % 128 = 0 := by omega
  rw [out_last m c t h0 h1, scratch_eq m c t.val t.isLt r ch, loss_eq_range]
  unfold partialSum
  rw [h1]

end Cert.KernelIdeal.Running

end
-- ==== Proof.Result.lean ====
/-
  The kernel's run, read: its result is the mean of the loss array.

  The output array [256, 5] is written back twice, once per block of 128 samples, after that block's last tile of
  cells; what is written is the running block, which by then holds the loss array's entries of those samples.  The two
  blocks tile the array, so after the region the array is the loss array.  The lines after the region sum it from
  zero and divide by 1280: the mean, kept as one unopened term.
-/
import proofs.«157780_j67499706024292_2_alg».proof.Proof.Running
import Idealize.ShloMosaic.Lib.Pipeline.Value
import Idealize.ShloMosaic.Lib.StableHlo.Run
import Idealize.ShloMosaic.Lib.Tactic

noncomputable section

open scoped BigOperators

namespace Cert.KernelIdeal.Result

open Cert.KernelIdeal Cert.KernelIdeal.Gen Idealize.ShloMosaic Idealize.ShloMosaic.TcCoe Idealize.SL.Sem
open Idealize.ShloMosaic.ValueIdx Cert.WeightedLoss Cert.KernelIdeal.Running
open Idealize.ShloMosaic.Pipeline (Dat)

variable (m : (ℓ : Loc nD τ sig) → Buf (Elt Ideal) ℓ) (ρ : Dev nD → PrngReg)

/-- Where the output's block sits, decided once over the grid: step `t` holds block of samples `t / 128`, all
    channels. -/
theorem out_block : ∀ t : Fin cfg0.N, win0_2.index t (0 : Fin 2) = t.val / 128 ∧ win0_2.index t (1 : Fin 2) = 0 :=
  (by decide +kernel : ∀ t : Fin grid0.N, _)

/-- The loss array of the arguments on core `c`, as contents of the output array. -/
abbrev lossArr (c : Dev nD) : Buf (Elt Ideal) ((c : Thread nD τ).loc main_v0) := loss (X m c) (Y m c)

/-- WHAT A WRITE-BACK WRITES: at a step that writes the output back (the last tile of a block of samples), the block
    written is that block of the loss array. -/
theorem flushed_eq (c : Dev nD) (t : Fin cfg0.N) (hf : (cfg0.win 2).flush t = true) :
    (dats m 0 c).flushed 2 t = ((cfg0.win 2).blk t).view.read (Elt Ideal) (lossArr m c) := by
  have h1 : t.val % 128 = 127 := (flush0_2 t).mp hf
  obtain ⟨e0, e1⟩ := out_block t
  show (cfg0.win 2).cut (grid0.coords t) ((dats m 0 c).after 2 t) = _
  rw [after0_2]
  funext j
  have hj0 : (j 0).val < 128 := Nat.lt_of_lt_of_le (j 0).isLt ((cfg0.win 2).xsize_le (grid0.coords t) 0)
  have hj1 : (j 1).val < 5 := Nat.lt_of_lt_of_le (j 1).isLt ((cfg0.win 2).xsize_le (grid0.coords t) 1)
  show (outsAt0 m c t.val t.isLt).1 ((cfg0.win 2).xinj (grid0.coords t) j) = _
  have ex : (cfg0.win 2).xinj (grid0.coords t) j = ix2 (⟨(j 0).val, hj0⟩ : Fin 128) (⟨(j 1).val, hj1⟩ : Fin 5) :=
    funext fun a => Fin.ext (by match a with | ⟨0, _⟩ => rfl | ⟨1, _⟩ => rfl)
  rw [ex, out_eq m c t h1 ⟨(j 0).val, hj0⟩ ⟨(j 1).val, hj1⟩, View.read_apply]
  show loss (X m c) (Y m c) _ = loss (X m c) (Y m c) (((cfg0.win 2).blk t).view.emb j)
  congr 1
  funext a
  apply Fin.ext
  match a with
  | ⟨0, _⟩ => show 128 * (t.val / 128) + (j 0).val = win0_2.index t (0 : Fin 2) * 128 + 1 * (j 0).val; rw [e0]; omega
  | ⟨1, _⟩ => show (j 1).val = win0_2.index t (1 : Fin 2) * 5 + 1 * (j 1).val; rw [e1]; omega

/-- An index of the output array is in step `t`'s block iff each coordinate is in the block's range on its axis. -/
theorem mem_out_blk (t : Fin cfg0.N) (i : S256x5.Idx) :
    i ∈ ((cfg0.win 2).blk t).view.set ↔ ∀ a : Fin 2, win0_2.index t a * S128x5.size a ≤ (i a).val
      ∧ (i a).val < win0_2.index t a * S128x5.size a + S128x5.size a := by
  show i ∈ ((View.whole main_v0).slice (win0_2.rect t)).set ↔ _
  rw [View.set_slice_whole, Rect.mem_set_unit]
  exact Iff.rfl

/-- Every entry of the output array is written back: sample `s` at the last tile of its block, step
    `128·(s / 128) + 127`. -/
theorem covered (i : S256x5.Idx) :
    ∃ t : Fin cfg0.N, (cfg0.win 2).flush t = true ∧ i ∈ ((cfg0.win 2).blk t).view.set := by
  have hN : cfg0.N = 256 := N_0
  have hi0 : (i 0).val < 256 := (i 0).isLt
  have hi1 : (i 1).val < 5 := (i 1).isLt
  have hlt : 128 * ((i 0).val / 128) + 127 < cfg0.N := by omega
  obtain ⟨e0, e1⟩ := out_block ⟨128 * ((i 0).val / 128) + 127, hlt⟩
  have e0' : win0_2.index ⟨128 * ((i 0).val / 128) + 127, hlt⟩ (0 : Fin 2) = (128 * ((i 0).val / 128) + 127) / 128 := e0
  refine ⟨⟨128 * ((i 0).val / 128) + 127, hlt⟩, (flush0_2 _).mpr (by show (128 * ((i 0).val / 128) + 127) % 128 = 127; omega), ?_⟩
  rw [mem_out_blk]
  intro a
  match a with
  | ⟨0, _⟩ =>
    show win0_2.index ⟨128 * ((i 0).val / 128) + 127, hlt⟩ (0 : Fin 2) * 128 ≤ (i 0).val
      ∧ (i 0).val < win0_2.index ⟨128 * ((i 0).val / 128) + 127, hlt⟩ (0 : Fin 2) * 128 + 128
    rw [e0']; omega
  | ⟨1, _⟩ =>
    show win0_2.index ⟨128 * ((i 0).val / 128) + 127, hlt⟩ (1 : Fin 2) * 5 ≤ (i 1).val
      ∧ (i 1).val < win0_2.index ⟨128 * ((i 0).val / 128) + 127, hlt⟩ (1 : Fin 2) * 5 + 5
    rw [e1]; omega

/-- THE OUTPUT ARRAY after the region is the loss array. -/
theorem final_out (c : Dev nD) : (dats m 0 c).arrAt 2 cfg0.N = lossArr m c :=
  (dats m 0 c).arrAt_eq_of_cover 2 (lossArr m c) (flushed_eq m c) covered

/-- The lines after the region leave the mean of the loss array in the result. -/
theorem tail_eq (c : Dev nD) :
    Pipeline.afterTail₀ cfgs (dats m) 0 (V0 m) [hostOps1] c main_v2
      = mean (loss (X m c) (Y m c)) reducesTo_S256x5_S_d0_1 h_S_ := by
  unfold Pipeline.afterTail₀
  show StableHlo.after hostOps1 _ (Proc.devRef .tc main_v2) = _
  after_results
  rw [show Pipeline.withArrays (cfgs 0).spec c (V0 m c) (fun w => (dats m 0 c).arrAt w (cfgs 0).N) (Proc.devRef .tc main_v0)
      = lossArr m c from (Pipeline.withArrays_arr spec0 launch0.win.arr_inj c _ _ 2).trans (final_out m c)]
  rfl

/-- The run, read: the result at the mean of the loss array, the arguments unchanged. -/
theorem run : θ_run defs (onTc (τ := τ) (main (F := Ideal))) ⟨m, fun _ => 0, ρ⟩ fun r => ∀ c : Dev nD,
      r.2.mem ((c.tc : Thread nD τ).loc main_v2) = mean (loss (X m c) (Y m c)) reducesTo_S256x5_S_d0_1 h_S_
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
    ⟨((h c).2 main_v2 (by decide)).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.Result

end
-- ==== Proof.LibLogistic.lean ====
/-
  The logistic function on the extended reals in the two spellings programs use: the single operation, and the
  quotient 1 / (1 + e^(−x)) written out with the float word of 1.0 standing for both ones.  They are one function of
  every extended real x: the single operation is defined as that quotient with the number one, and the word of 1.0
  denotes the number one.  (At −∞ the quotient reads 1 / (1 + ∞) = 0 and at +∞ it reads 1 / (1 + 0) = 1, by the
  conventions of the division and of the exponential; nothing here depends on x being finite.)
-/
import Idealize.ShloMosaic.PureOps.Ideal

noncomputable section

namespace Cert.LibLogistic

open Idealize.ShloMosaic

/-- The float word of 1.0 denotes the number one. -/
theorem one_word : Ideal.ofBits .f32 0x3F800000#32 = 1 := by
  simp [Ideal.ofBits, Ideal.ieee, -EReal.coe_mul]; norm_num

/-- The quotient spelling, with the word of 1.0 for both ones, is the logistic function, for every extended real. -/
theorem quotient_eq_logistic (x : EReal) :
    Ideal.div (Ideal.ofBits .f32 0x3F800000#32) (Ideal.ofBits .f32 0x3F800000#32 + Ideal.exp (-x)) = Ideal.logistic x := by
  rw [one_word]; rfl

end Cert.LibLogistic

end
-- ==== Proof.RefSide.lean ====
/-
  The reference program's summed stage is the loss array, on the extended reals.

  The reference transforms the predictions one channel at a time — it cuts each channel out as a [256, 8192, 1] column,
  flattens it to [256, 8192], applies 1 / (1 + e^(−x)) (channels 0, 1, 4) or e^x (channels 2, 3), restores the unit
  axis — and stacks the five columns along the last axis.  Read at (b, k, ch) the stack is the column of channel ch
  at (b, k, 0), which is that channel's transform of x at (b, k, ch); the quotient spelling of the logistic function
  is the logistic function.  The weight column is computed from the labels' channel 4 and broadcast along the
  channels, the squared difference and the product are pointwise, and the sum along the cells' axis from the zero
  word is the plain sum.  So at (b, ch) the summed stage is the sum over the 8192 cells of the specification's term.
-/
import proofs.«157780_j67499706024292_2_alg».proof.Proof.Gen.ReferenceIdeal.Read
import proofs.«157780_j67499706024292_2_alg».proof.Proof.Spec
import proofs.«157780_j67499706024292_2_alg».proof.Proof.LibLogistic
import Idealize.ShloMosaic.Lib.Pipeline.Value
import Idealize.ShloMosaic.Lib.ValueIdx
import Idealize.ShloMosaic.PureOps.Ideal.Laws

noncomputable section

open scoped BigOperators

namespace Cert.ReferenceIdeal.RefValue

open Cert.ReferenceIdeal Cert.ReferenceIdeal.Gen Cert.ReferenceIdeal.Read Idealize.ShloMosaic Idealize.ShloMosaic.ValueIdx
open Cert.WeightedLoss

variable (x y : (⟨3, ![256, 8192, 5]⟩ : Shape).Idx → EReal)

/-- Flattening [256, 8192, 1] to [256, 8192] keeps (b, k): the row-major position b·8192 + k is read back as
    (b, k, 0). -/
theorem flat_lt (b : Fin 256) (k : Fin 8192) :
    (b.val * 8192 + k.val) / 8192 = b.val ∧ (b.val * 8192 + k.val) / 1 % 8192 = k.val := by
  have := b.isLt; have := k.isLt; omega

/-! ### The five columns, each at (b, k, 0) -/

theorem column0 (b : Fin 256) (k : Fin 8192) :
    val_main_v30 (F := Ideal) x (ix3 b k (0 : Fin 1)) = Ideal.logistic (x (ix3 b k (0 : Fin 5))) := by
  rw [val_main_v30_apply, val_main_v7_apply, val_main_v6_apply, val_main_cst_0_apply, val_main_v5_apply, val_main_v4_apply,
    val_main_cst_apply, val_main_v3_apply, val_main_v2_apply, val_main_v1_apply, val_main_v0_apply]
  have e : idx_main_v0 (idx_main_v1 (idx_main_v30 (ix3 b k (0 : Fin 1)))) = ix3 b k (0 : Fin 5) :=
    funext fun a => Fin.ext (by
      match a with
      | ⟨0, _⟩ => exact (flat_lt b k).1
      | ⟨1, _⟩ => exact (flat_lt b k).2
      | ⟨2, _⟩ => rfl)
  rw [e]
  exact Cert.LibLogistic.quotient_eq_logistic _

theorem column1 (b : Fin 256) (k : Fin 8192) :
    val_main_v31 (F := Ideal) x (ix3 b k (0 : Fin 1)) = Ideal.logistic (x (ix3 b k (1 : Fin 5))) := by
  rw [val_main_v31_apply, val_main_v15_apply, val_main_v14_apply, val_main_cst_2_apply, val_main_v13_apply, val_main_v12_apply,
    val_main_cst_1_apply, val_main_v11_apply, val_main_v10_apply, val_main_v9_apply, val_main_v8_apply]
  have e : idx_main_v8 (idx_main_v9 (idx_main_v31 (ix3 b k (0 : Fin 1)))) = ix3 b k (1 : Fin 5) :=
    funext fun a => Fin.ext (by
      match a with
      | ⟨0, _⟩ => exact (flat_lt b k).1
      | ⟨1, _⟩ => exact (flat_lt b k).2
      | ⟨2, _⟩ => rfl)
  rw [e]
  exact Cert.LibLogistic.quotient_eq_logistic _

theorem column2 (b : Fin 256) (k : Fin 8192) :
    val_main_v32 (F := Ideal) x (ix3 b k (0 : Fin 1)) = Ideal.exp (x (ix3 b k (2 : Fin 5))) := by
  rw [val_main_v32_apply, val_main_v18_apply, val_main_v17_apply, val_main_v16_apply]
  have e : idx_main_v16 (idx_main_v17 (idx_main_v32 (ix3 b k (0 : Fin 1)))) = ix3 b k (2 : Fin 5) :=
    funext fun a => Fin.ext (by
      match a with
      | ⟨0, _⟩ => exact (flat_lt b k).1
      | ⟨1, _⟩ => exact (flat_lt b k).2
      | ⟨2, _⟩ => rfl)
  rw [e]
  rfl

theorem column3 (b : Fin 256) (k : Fin 8192) :
    val_main_v33 (F := Ideal) x (ix3 b k (0 : Fin 1)) = Ideal.exp (x (ix3 b k (3 : Fin 5))) := by
  rw [val_main_v33_apply, val_main_v21_apply, val_main_v20_apply, val_main_v19_apply]
  have e : idx_main_v19 (idx_main_v20 (idx_main_v33 (ix3 b k (0 : Fin 1)))) = ix3 b k (3 : Fin 5) :=
    funext fun a => Fin.ext (by
      match a with
      | ⟨0, _⟩ => exact (flat_lt b k).1
      | ⟨1, _⟩ => exact (flat_lt b k).2
      | ⟨2, _⟩ => rfl)
  rw [e]
  rfl

theorem column4 (b : Fin 256) (k : Fin 8192) :
    val_main_v34 (F := Ideal) x (ix3 b k (0 : Fin 1)) = Ideal.logistic (x (ix3 b k (4 : Fin 5))) := by
  rw [val_main_v34_apply, val_main_v29_apply, val_main_v28_apply, val_main_cst_4_apply, val_main_v27_apply, val_main_v26_apply,
    val_main_cst_3_apply, val_main_v25_apply, val_main_v24_apply, val_main_v23_apply, val_main_v22_apply]
  have e : idx_main_v22 (idx_main_v23 (idx_main_v34 (ix3 b k (0 : Fin 1)))) = ix3 b k (4 : Fin 5) :=
    funext fun a => Fin.ext (by
      match a with
      | ⟨0, _⟩ => exact (flat_lt b k).1
      | ⟨1, _⟩ => exact (flat_lt b k).2
      | ⟨2, _⟩ => rfl)
  rw [e]
  exact Cert.LibLogistic.quotient_eq_logistic _

/-! ### The stack of the five columns -/

/-- Columns of unit width stacked along the last axis, read at (b, k, ch): column number ch at (b, k, 0). -/
theorem stack_at {α : Type} (xs : List ((s : Shape) × (s.Idx → α)))
    (h : Shape.Concatenates (xs.map (·.1)) S256x8192x5 (2 : Fin 3)) (b : Fin 256) (k : Fin 8192) (ch : Fin 5)
    (hk : ch.val < xs.length) (p : S256x8192x1.Idx → α) (hp : xs[ch.val] = ⟨S256x8192x1, p⟩)
    (hpre : (((xs.take ch.val).map (·.1)).map fun s =>
      if h : s.rank = S256x8192x5.rank then s.size ((2 : Fin 3).cast h.symm) else 0).sum = ch.val) :
    concatenate S256x8192x5 (2 : Fin 3) xs h (ix3 b k ch) = p (ix3 b k (0 : Fin 1)) :=
  concatenate_apply_piece (2 : Fin 3) xs h (ix3 b k ch) ch.val hk S256x8192x1 p hp rfl ch.val hpre (ix3 b k (0 : Fin 1))
    (fun b' hb' => by
      match b', hb' with
      | ⟨0, _⟩, _ => rfl
      | ⟨1, _⟩, _ => rfl
      | ⟨2, _⟩, hb' => exact absurd (Fin.ext rfl) hb') rfl

/-- The stacked, transformed predictions at (b, k, ch): the channel's transform of x there. -/
theorem stacked (b : Fin 256) (k : Fin 8192) : ∀ ch : Fin 5,
    val_main_v35 (F := Ideal) x (ix3 b k ch) = act ch.val (x (ix3 b k ch))
  | ⟨0, h⟩ => by
    unfold val_main_v35
    refine (stack_at _ _ b k ⟨0, h⟩ ?_ (val_main_v30 (F := Ideal) x) ?_ ?_).trans (column0 x b k)
    · exact h
    · rfl
    · rfl
  | ⟨1, h⟩ => by
    unfold val_main_v35
    refine (stack_at _ _ b k ⟨1, h⟩ ?_ (val_main_v31 (F := Ideal) x) ?_ ?_).trans (column1 x b k)
    · exact h
    · rfl
    · rfl
  | ⟨2, h⟩ => by
    unfold val_main_v35
    refine (stack_at _ _ b k ⟨2, h⟩ ?_ (val_main_v32 (F := Ideal) x) ?_ ?_).trans (column2 x b k)
    · exact h
    · rfl
    · rfl
  | ⟨3, h⟩ => by
    unfold val_main_v35
    refine (stack_at _ _ b k ⟨3, h⟩ ?_ (val_main_v33 (F := Ideal) x) ?_ ?_).trans (column3 x b k)
    · exact h
    · rfl
    · rfl
  | ⟨4, h⟩ => by
    unfold val_main_v35
    refine (stack_at _ _ b k ⟨4, h⟩ ?_ (val_main_v34 (F := Ideal) x) ?_ ?_).trans (column4 x b k)
    · exact h
    · rfl
    · rfl

/-! ### The weight, the term, the sum -/

/-- The weight column broadcast along the channels, at (b, k, ch): the weight of the label at (b, k, 4). -/
theorem weight_at (b : Fin 256) (k : Fin 8192) (ch : Fin 5) :
    val_main_v43 (F := Ideal) y (ix3 b k ch) = weight (y (ix3 b k (4 : Fin 5))) := by
  rw [val_main_v43_apply, val_main_v42_apply, val_main_v39_apply, val_main_v38_apply, val_main_v36_apply, val_main_v37_apply,
    val_main_cst_5_apply, val_main_call0_v0_apply, val_main_cst_6_apply, val_main_call0_v1_apply, val_main_cst_7_apply]
  have e : idx_main_v36 (idx_main_v43 (ix3 b k ch)) = ix3 b k (4 : Fin 5) :=
    funext fun a => Fin.ext (by
      match a with
      | ⟨0, _⟩ => rfl
      | ⟨1, _⟩ => rfl
      | ⟨2, _⟩ => rfl)
  rw [e]
  rfl

/-- The product stage at (b, k, ch) is the specification's term. -/
theorem term_at (b : Fin 256) (k : Fin 8192) (ch : Fin 5) :
    val_main_v44 (F := Ideal) x y (ix3 b k ch) = term x y b k ch := by
  rw [val_main_v44_apply, weight_at y b k ch, val_main_v41_apply, val_main_v40_apply, stacked x b k ch]
  rfl

/-- THE SUMMED STAGE is the loss array. -/
theorem summed_eq : val_main_v45 (F := Ideal) x y = loss x y := by
  funext i
  obtain ⟨b, ch, rfl⟩ : ∃ (b : Fin 256) (ch : Fin 5), i = ix2 b ch := ⟨i 0, i 1, eq_ix2 i⟩
  rw [val_main_v45_apply, val_main_cst_8_apply]
  rw [show FloatOps.ofBits (F := Ideal) .f32 0x00000000#32 = (0 : EReal) from Ideal.ofBits_zero_f32, zero_add]
  unfold loss
  refine Finset.sum_congr rfl fun k _ => ?_
  have e : idx_main_v45 (ix2 b ch) k = ix3 b k ch :=
    funext fun a => Fin.ext (by
      match a with
      | ⟨0, _⟩ => rfl
      | ⟨1, _⟩ => rfl
      | ⟨2, _⟩ => rfl)
  rw [e]
  exact term_at x y b k ch

/-- The reference's result is the mean of the loss array. -/
theorem result_eq : val_main_v47 (F := Ideal) x y = mean (loss x y) reducesTo_S256x5_S_d0_1 h_S_ := by
  unfold val_main_v47 val_main_v46
  rw [summed_eq]
  rfl

end Cert.ReferenceIdeal.RefValue

end
-- ==== Proof.lean ====
/-
  A weighted squared-error loss, tiled and accumulated, against the same loss written with whole-array operations.

  Both programs take predictions x and labels y of shape [256, 8192, 5] (samples, cells, channels) and return one
  number: the mean over samples and channels of  Σ_cells w · (y − a(x))²,  where a is the logistic function on
  channels 0, 1, 4 and the exponential on channels 2, 3, and the weight w of a cell is the word of 0.1 when the
  label's channel 4 exceeds 1/2 and 1 otherwise.

  The kernel walks a 2 × 128 grid: for each block of 128 samples it sweeps 128 tiles of 64 cells, keeps a running
  [128, 5] block that starts from zero at the first tile and gains each tile's 64 terms, and writes the block out
  after the last tile.  By induction over the steps the running block after a step is the sum of the terms of the
  cells seen so far (an initial segment, one tile longer each step), so what is written out is the sum over all 8192
  cells.  Regrouping a sum into tiles needs only that addition of extended reals is associative and commutative, so
  no finiteness of the inputs is used.  The reference builds the transformed predictions channel by channel, with
  the logistic function spelled 1 / (1 + e^(−x)), which is the same function of every extended real, and sums along
  the cells' axis at once.  Both then take the mean by the same two operations, carried as one term.

  The frames of the two kernel programs are the generated ones; the reference's frame is its generated run with the
  result dropped; the idealization rewrote nothing.
-/
import proofs.«157780_j67499706024292_2_alg».proof.Defs
import proofs.«157780_j67499706024292_2_alg».proof.Proof.Gen.Kernel
import proofs.«157780_j67499706024292_2_alg».proof.Proof.Gen.Kernel.Skeleton
import proofs.«157780_j67499706024292_2_alg».proof.Proof.Gen.Kernel.Launch
import proofs.«157780_j67499706024292_2_alg».proof.Proof.Gen.Kernel.Points
import proofs.«157780_j67499706024292_2_alg».proof.Proof.Gen.Kernel.Frame
import proofs.«157780_j67499706024292_2_alg».proof.Proof.Gen.KernelIdeal
import proofs.«157780_j67499706024292_2_alg».proof.Proof.Gen.KernelIdeal.Skeleton
import proofs.«157780_j67499706024292_2_alg».proof.Proof.Gen.KernelIdeal.Launch
import proofs.«157780_j67499706024292_2_alg».proof.Proof.Gen.KernelIdeal.Points
import proofs.«157780_j67499706024292_2_alg».proof.Proof.Gen.KernelIdeal.Frame
import proofs.«157780_j67499706024292_2_alg».proof.Proof.Gen.ReferenceIdeal
import proofs.«157780_j67499706024292_2_alg».proof.Proof.Gen.ReferenceIdeal.Run
import proofs.«157780_j67499706024292_2_alg».proof.Proof.Gen.ReferenceIdeal.Read
import proofs.«157780_j67499706024292_2_alg».proof.Proof.Gen.Pre_finite_inputs
import proofs.«157780_j67499706024292_2_alg».proof.Proof.Result
import proofs.«157780_j67499706024292_2_alg».proof.Proof.RefSide
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments as they were: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From arguments that agree, both programs end at the mean of the loss array of those arguments. -/
theorem algebraic : Cert.algebraic_KernelIdeal_ReferenceIdeal := by
  intro m ρ m' ρ' _ hagree
  refine ⟨fun c => Cert.WeightedLoss.mean
      (Cert.WeightedLoss.loss (Cert.KernelIdeal.Running.X m c) (Cert.KernelIdeal.Running.Y m c))
      Cert.KernelIdeal.Facts₀.reducesTo_S256x5_S_d0_1 Cert.KernelIdeal.Facts₀.h_S_,
    Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v47_eq, (hagree c).1, (hagree c).2]
  exact Cert.ReferenceIdeal.RefValue.result_eq _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
